-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S8x2816x512 : Shape := ⟨3, ![8, 2816, 512]⟩
abbrev S8x512x1408 : Shape := ⟨3, ![8, 512, 1408]⟩
abbrev S8 : Shape := ⟨1, ![8]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S8x2816x512 : S_.BroadcastsInDim S8x2816x512 (![] : Fin 0 → Fin S8x2816x512.rank)
  reducesTo_S8x2816x512_S_d0_1_2 : S8x2816x512.ReducesTo [0, 1, 2] S_
  bcast_S_S8x512x1408 : S_.BroadcastsInDim S8x512x1408 (![] : Fin 0 → Fin S8x512x1408.rank)
  reducesTo_S8x512x1408_S_d0_1_2 : S8x512x1408.ReducesTo [0, 1, 2] S_
  bcast_S_S8 : S_.BroadcastsInDim S8 (![] : Fin 0 → Fin S8.rank)
  reducesTo_S8_S_d0 : S8.ReducesTo [0] S_

variable [Facts]

def fn_part1 {F : FTy → Type} [FloatOps F] (main_arg3 : IVec S8 32) (main_v13 : IVec S_ 1) (main_v16 : IVec S8 32) : IVec S_ 1 :=
  let main_v17 : IVec S8 1 := cmpi .eq main_arg3 main_v16
  let main_c_5 : IVec S_ 1 := constantI S_ 1 1#1
  let main_v18 : IVec S_ 1 := (fun x v => Host.reduce IntOp.andi x v reducesTo_S8_S_d0 h_S_) main_v17 main_c_5
  let main_v19 : IVec S_ 1 := andi main_v13 main_v18
  main_v19

def fn {F : FTy → Type} [FloatOps F] (main_arg0 : FVec F S32768x512 .f32) (main_arg1 : FVec F S8x2816x512 .f32) (main_arg2 : FVec F S8x512x1408 .f32) (main_arg3 : IVec S8 32) (main_arg4 : IVec S8 32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S8x2816x512 .f32 := Host.absf main_arg1
  let main_cst_0 : FVec F S_ .f32 := constant S_ .f32 0x7F800000#32
  let main_v5 : FVec F S8x2816x512 .f32 := broadcastInDim S8x2816x512 ![] bcast_S_S8x2816x512 main_cst_0
  let main_v6 : IVec S8x2816x512 1 := cmpf .olt main_v4 main_v5
  let main_c_1 : IVec S_ 1 := constantI S_ 1 1#1
  let main_v7 : IVec S_ 1 := (fun x v => Host.reduce IntOp.andi x v reducesTo_S8x2816x512_S_d0_1_2 h_S_) main_v6 main_c_1
  let main_v8 : IVec S_ 1 := andi main_v3 main_v7
  let main_v9 : FVec F S8x512x1408 .f32 := Host.absf main_arg2
  let main_cst_2 : FVec F S_ .f32 := constant S_ .f32 0x7F800000#32
  let main_v10 : FVec F S8x512x1408 .f32 := broadcastInDim S8x512x1408 ![] bcast_S_S8x512x1408 main_cst_2
  let main_v11 : IVec S8x512x1408 1 := cmpf .olt main_v9 main_v10
  let main_c_3 : IVec S_ 1 := constantI S_ 1 1#1
  let main_v12 : IVec S_ 1 := (fun x v => Host.reduce IntOp.andi x v reducesTo_S8x512x1408_S_d0_1_2 h_S_) main_v11 main_c_3
  let main_v13 : IVec S_ 1 := andi main_v8 main_v12
  let main_v14 : IVec S8 32 := iotaInDim S8 32 0
  let main_c_4 : IVec S_ 32 := constantI S_ 32 4096#32
  let main_v15 : IVec S8 32 := broadcastInDim S8 ![] bcast_S_S8 main_c_4
  let main_v16 : IVec S8 32 := muli main_v14 main_v15
  fn_part1 (F := F) main_arg3 main_v13 main_v16
-- ==== Kernel.lean ====
abbrev S32768x512 : Shape := ⟨2, ![32768, 512]⟩
abbrev S8x2816x512 : Shape := ⟨3, ![8, 2816, 512]⟩
abbrev S8x512x1408 : Shape := ⟨3, ![8, 512, 1408]⟩
abbrev S8 : Shape := ⟨1, ![8]⟩
abbrev S8x512x2816 : Shape := ⟨3, ![8, 512, 2816]⟩
abbrev S8x1408x512 : Shape := ⟨3, ![8, 1408, 512]⟩
abbrev S512x512 : Shape := ⟨2, ![512, 512]⟩
abbrev S1 : Shape := ⟨1, ![1]⟩
abbrev S1x512x2816 : Shape := ⟨3, ![1, 512, 2816]⟩
abbrev S1x1408x512 : Shape := ⟨3, ![1, 1408, 512]⟩
abbrev S512x2816 : Shape := ⟨2, ![512, 2816]⟩
abbrev S1408x512 : Shape := ⟨2, ![1408, 512]⟩
abbrev S512x1408 : Shape := ⟨2, ![512, 1408]⟩

abbrev nBuf : Space → Nat
  | .hbm => 10
  | .vmem => 8
  | .smem => 1
  | _ => 0

abbrev bufTy : (tb : Table) → Fin (tcTables nBuf tb) → BufTy
  | .hbm, ⟨0, _⟩ => ⟨S32768x512, .f32⟩
  | .hbm, ⟨1, _⟩ => ⟨S8x2816x512, .f32⟩
  | .hbm, ⟨2, _⟩ => ⟨S8x512x1408, .f32⟩
  | .hbm, ⟨3, _⟩ => ⟨S8, .i32⟩
  | .hbm, ⟨4, _⟩ => ⟨S32768x512, .bf16⟩
  | .hbm, ⟨5, _⟩ => ⟨S8x512x2816, .f32⟩
  | .hbm, ⟨6, _⟩ => ⟨S8x512x2816, .bf16⟩
  | .hbm, ⟨7, _⟩ => ⟨S8x1408x512, .f32⟩
  | .hbm, ⟨8, _⟩ => ⟨S8x1408x512, .bf16⟩
  | .hbm, ⟨9, _⟩ => ⟨S32768x512, .f32⟩
  | .local _ .vmem, ⟨0, _⟩ => ⟨S512x512, .bf16⟩
  | .local _ .vmem, ⟨1, _⟩ => ⟨S512x512, .bf16⟩
  | .local _ .vmem, ⟨2, _⟩ => ⟨S1x512x2816, .bf16⟩
  | .local _ .vmem, ⟨3, _⟩ => ⟨S1x512x2816, .bf16⟩
  | .local _ .vmem, ⟨4, _⟩ => ⟨S1x1408x512, .bf16⟩
  | .local _ .vmem, ⟨5, _⟩ => ⟨S1x1408x512, .bf16⟩
  | .local _ .vmem, ⟨6, _⟩ => ⟨S512x512, .f32⟩
  | .local _ .vmem, ⟨7, _⟩ => ⟨S512x512, .f32⟩
  | .local _ .smem, ⟨0, _⟩ => ⟨S8, .i32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S8.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c512_i32 : BitVec 32 := 512#32
  let v2 : BitVec 32 := Scalar.divsi v1 c512_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let v19 : BitVec 32 := Scalar.addi v18 arg1
  let c0_i32_4 : BitVec 32 := 0#32
  let c0_i32_5 : BitVec 32 := 0#32
  ![v19.toNat, c0_i32_4.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (k0_off1_inb : ∀ i : grid0.Coords, ∀ a, (k0_off1 i) a + S1.size a ≤ S8.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c512_i32 : BitVec 32 := 512#32
  let v2 : BitVec 32 := Scalar.divsi v1 c512_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c512_i32 c0_i32_1
  let v9 : BitVec 32 := Scalar.extui v8
  let c0_i32_2 : BitVec 32 := 0#32
  let v10 : BitVec 1 := Scalar.cmpi .slt c512_i32 c0_i32_2
  let v11 : BitVec 32 := Scalar.extui v10
  let v12 : BitVec 32 := Scalar.subi v9 v11
  let v13 : BitVec 1 := Scalar.cmpi .ne v7 v12
  let v14 : BitVec 32 := Scalar.remsi v1 c512_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let v19 : BitVec 32 := Scalar.addi v18 arg1
  let c0_i32_4 : BitVec 32 := 0#32
  let c0_i32_5 : BitVec 32 := 0#32
  ![v19.toNat, c0_i32_4.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  transposes_S8x2816x512_S8x512x2816_0_2_1 : S8x2816x512.Transposes [0, 2, 1] S8x512x2816
  transposes_S8x512x1408_S8x1408x512_0_2_1 : S8x512x1408.Transposes [0, 2, 1] S8x1408x512
  numel1_S1 : S1.numel = 1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512x2816_S1x512x2816_0_0_0 : ∀ a, (![0, 0, 0] : Fin 3 → Nat) a + S1x512x2816.size a ≤ S1x512x2816.size a
  h_S1x512x2816 : 0 < S1x512x2816.numel
  shapeCasts_S1x512x2816_S512x2816 : S1x512x2816.ShapeCasts S512x2816
  inb_S1x1408x512_S1x1408x512_0_0_0 : ∀ a, (![0, 0, 0] : Fin 3 → Nat) a + S1x1408x512.size a ≤ S1x1408x512.size a
  h_S1x1408x512 : 0 < S1x1408x512.numel
  shapeCasts_S1x1408x512_S1408x512 : S1x1408x512.ShapeCasts S1408x512
  slices_S512x2816_o0_0_S512x1408 : S512x2816.Slices ![0, 0] S512x1408
  slices_S512x2816_o0_1408_S512x1408 : S512x2816.Slices ![0, 1408] S512x1408
  dot_S512x512_S512x2816_S512x2816_1_0_0_1_n_n_wf : DotDims.WF S512x512 S512x2816 S512x2816 [1] [0] [0] [1] [] []
  dot_S512x1408_S1408x512_S512x512_1_0_0_1_n_n_wf : DotDims.WF S512x1408 S1408x512 S512x512 [1] [0] [0] [1] [] []
  hrank0 : 0 < grid0.rank
  k0_off1_inb : ∀ i : grid0.Coords, ∀ a, (k0_off1 i) a + S1.size a ≤ S8.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x2816.size a ≤ S8x512x2816.size a
  hwx0_1 : ∀ i : grid0.Coords, EltTy.bits .bf16 = 32 ∨ (Rect.block (s := S8x512x2816) S1x512x2816.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1408x512.size a ≤ S8x1408x512.size a
  hwx0_2 : ∀ i : grid0.Coords, EltTy.bits .bf16 = 32 ∨ (Rect.block (s := S8x1408x512) S1x1408x512.size (cc0_transform_2 i) (hinb0_2 i)).WholeWords (EltTy.packing .bf16)
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'

variable [Facts₀]

def dot_S512x512_S512x2816_S512x2816_1_0_0_1_n_n : DotDims S512x512 S512x2816 S512x2816 where
  lhsContracting := [1]
  rhsContracting := [0]
  lhsNonContracting := [0]
  rhsNonContracting := [1]
  lhsBatch := []
  rhsBatch := []
  wf := dot_S512x512_S512x2816_S512x2816_1_0_0_1_n_n_wf
def dot_S512x1408_S1408x512_S512x512_1_0_0_1_n_n : DotDims S512x1408 S1408x512 S512x512 where
  lhsContracting := [1]
  rhsContracting := [0]
  lhsNonContracting := [0]
  rhsNonContracting := [1]
  lhsBatch := []
  rhsBatch := []
  wf := dot_S512x1408_S1408x512_S512x512_1_0_0_1_n_n_wf

abbrev spec0_0 : Pipeline.WinSpec sig grid0.rank :=
  Pipeline.WinSpec.ofSpec (Memref.whole main_v0) S512x512.size reads0_0 false false 2 stage0_0 sem0_0 nbuf0_0 hstage0_0

abbrev spec0_1 : Pipeline.WinSpec sig grid0.rank :=
  Pipeline.WinSpec.ofSpec (Memref.whole main_v2) S1x512x2816.size reads0_1 false false 2 stage0_1 sem0_1 nbuf0_1 hstage0_1

abbrev spec0_2 : Pipeline.WinSpec sig grid0.rank :=
  Pipeline.WinSpec.ofSpec (Memref.whole main_v4) S1x1408x512.size reads0_2 false false 2 stage0_2 sem0_2 nbuf0_2 hstage0_2

abbrev spec0_3 : Pipeline.WinSpec sig grid0.rank :=
  Pipeline.WinSpec.ofSpec (Memref.whole main_v5) S512x512.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 k0_off1_inb numel1_S1 pf | 1 => cc0_transform_1 | 2 => cc0_transform_2 | 3 => cc0_transform_3 k0_off1_inb numel1_S1 pf | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 | 2 => hreads0_2 | 3 => hreads0_3 pf | ⟨_ + 4, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S512x512.size a ≤ S32768x512.size a), EltTy.bits .bf16 = 32 ∨ (Rect.block (s := S32768x512) S512x512.size (cc0_transform_0 k0_off1_inb numel1_S1 pf i) h).WholeWords (EltTy.packing .bf16)) ∧
  (∀ i : grid0.Coords, ∃ h : (∀ a, (cc0_transform_3 k0_off1_inb numel1_S1 pf i a + 1) * S512x512.size a ≤ S32768x512.size a), EltTy.bits .f32 = 32 ∨ (Rect.block (s := S32768x512) S512x512.size (cc0_transform_3 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => hinb0_1 | 2 => hinb0_2 | 3 => fun i a => (hok.2 i).elim fun h _ => h a | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => hwx0_1 | 2 => hwx0_2 | 3 => fun i => (hok.2 i).elim fun _ h => h | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S32768x512 : Shape := ⟨2, ![32768, 512]⟩
abbrev S8x2816x512 : Shape := ⟨3, ![8, 2816, 512]⟩
abbrev S8x512x1408 : Shape := ⟨3, ![8, 512, 1408]⟩
abbrev S8 : Shape := ⟨1, ![8]⟩
abbrev S_ : Shape := ⟨0, ![]⟩
abbrev S8x1 : Shape := ⟨2, ![8, 1]⟩
abbrev S8x2 : Shape := ⟨2, ![8, 2]⟩
abbrev S8x4096x512 : Shape := ⟨3, ![8, 4096, 512]⟩
abbrev S8x4096x2816 : Shape := ⟨3, ![8, 4096, 2816]⟩
abbrev S8x4096x1408 : Shape := ⟨3, ![8, 4096, 1408]⟩

abbrev nBuf : Space → Nat
  | .hbm => 32
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S8x2816x512, .f32⟩
  | .hbm, ⟨2, _⟩ => ⟨S8x512x1408, .f32⟩
  | .hbm, ⟨3, _⟩ => ⟨S8, .i32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i1⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S8, .i32⟩
  | .hbm, ⟨12, _⟩ => ⟨S8x1, .i32⟩
  | .hbm, ⟨13, _⟩ => ⟨S_, .i32⟩
  | .hbm, ⟨14, _⟩ => ⟨S8x1, .i32⟩
  | .hbm, ⟨15, _⟩ => ⟨S8x2, .i32⟩
  | .hbm, ⟨16, _⟩ => ⟨S8x4096x512, .f32⟩
  | .hbm, ⟨17, _⟩ => ⟨S8x4096x2816, .f32⟩
  | .hbm, ⟨18, _⟩ => ⟨S8x4096x1408, .f32⟩
  | .hbm, ⟨19, _⟩ => ⟨S8x4096x1408, .f32⟩
  | .hbm, ⟨20, _⟩ => ⟨S8x4096x1408, .f32⟩
  | .hbm, ⟨21, _⟩ => ⟨S8x4096x1408, .f32⟩
  | .hbm, ⟨22, _⟩ => ⟨S_, .f32⟩
  | .hbm, ⟨23, _⟩ => ⟨S8x4096x1408, .f32⟩
  | .hbm, ⟨24, _⟩ => ⟨S8x4096x1408, .f32⟩
  | .hbm, ⟨25, _⟩ => ⟨S_, .f32⟩
  | .hbm, ⟨26, _⟩ => ⟨S8x4096x1408, .f32⟩
  | .hbm, ⟨27, _⟩ => ⟨S8x4096x1408, .f32⟩
  | .hbm, ⟨28, _⟩ => ⟨S8x4096x1408, .f32⟩
  | .hbm, ⟨29, _⟩ => ⟨S8x4096x1408, .f32⟩
  | .hbm, ⟨30, _⟩ => ⟨S8x4096x512, .f32⟩
  | .hbm, ⟨31, _⟩ => ⟨S32768x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S8_S8x1_0 : S8.BroadcastsInDim S8x1 (![0] : Fin 1 → Fin S8x1.rank)
  bcast_S_S8x1 : S_.BroadcastsInDim S8x1 (![] : Fin 0 → Fin S8x1.rank)
  concatenates_S8x1_S8x1_S8x2_d1 : Shape.Concatenates [S8x1, S8x1] S8x2 1
  slices_S8x4096x2816_S8x4096x1408_0_0_0 : S8x4096x2816.Slices ![0, 0, 0] S8x4096x1408
  slices_S8x4096x2816_S8x4096x1408_0_0_1408 : S8x4096x2816.Slices ![0, 0, 1408] S8x4096x1408
  bcast_S_S8x4096x1408 : S_.BroadcastsInDim S8x4096x1408 (![] : Fin 0 → Fin S8x4096x1408.rank)
  shapeCasts_S8x4096x512_S32768x512 : S8x4096x512.ShapeCasts S32768x512
  gather_S32768x512_S8x2_S8x4096x512_12_n_n_n_01_1_4096512_wf : GatherDims.WF S32768x512 S8x2 S8x4096x512 [1, 2] [] [] [0, 1] [] 1 ![4096, 512]
  dot_S8x4096x512_S8x2816x512_S8x4096x2816_2_2_1_1_0_0_wf : DotDims.WF S8x4096x512 S8x2816x512 S8x4096x2816 [2] [2] [1] [1] [0] [0]
  dot_S8x4096x1408_S8x512x1408_S8x4096x512_2_2_1_1_0_0_wf : DotDims.WF S8x4096x1408 S8x512x1408 S8x4096x512 [2] [2] [1] [1] [0] [0]

variable [Facts₀]

def gather_S32768x512_S8x2_S8x4096x512_12_n_n_n_01_1_4096512 : GatherDims S32768x512 S8x2 S8x4096x512 where
  offsetDims := [1, 2]
  collapsedSliceDims := []
  operandBatchingDims := []
  startIndicesBatchingDims := []
  startIndexMap := [0, 1]
  indexVectorDim := 1
  sliceSizes := ![4096, 512]
  wf := gather_S32768x512_S8x2_S8x4096x512_12_n_n_n_01_1_4096512_wf
def dot_S8x4096x512_S8x2816x512_S8x4096x2816_2_2_1_1_0_0 : DotDims S8x4096x512 S8x2816x512 S8x4096x2816 where
  lhsContracting := [2]
  rhsContracting := [2]
  lhsNonContracting := [1]
  rhsNonContracting := [1]
  lhsBatch := [0]
  rhsBatch := [0]
  wf := dot_S8x4096x512_S8x2816x512_S8x4096x2816_2_2_1_1_0_0_wf
def dot_S8x4096x1408_S8x512x1408_S8x4096x512_2_2_1_1_0_0 : DotDims S8x4096x1408 S8x512x1408 S8x4096x512 where
  lhsContracting := [2]
  rhsContracting := [2]
  lhsNonContracting := [1]
  rhsNonContracting := [1]
  lhsBatch := [0]
  rhsBatch := [0]
  wf := dot_S8x4096x1408_S8x512x1408_S8x4096x512_2_2_1_1_0_0_wf

class Facts : Prop extends Facts₀ where

variable [Facts]
-- ==== Proof.Swiglu.lean ====
/-
  The grouped SwiGLU expert layer as ONE function of the three float arrays, index by index, on the extended reals.

  Rows of `x : [32768, 512]` come in eight consecutive segments of 4096 rows; row `ρ` belongs to expert `ρ / 4096`.
  For a row `ρ` of expert `e`:
    • the fused projection  `p ρ j = ∑ k, x[ρ, k] · w12[e, j, k]`  for `j < 2816`;
    • its first 1408 columns are the gate, its last 1408 the up branch, and the hidden row is
      `hid ρ h = (p ρ h · σ(p ρ h)) · p ρ (1408 + h)`  with  `σ t = 1 / (1 + e^(-t))`;
    • the result is the down projection  `out[ρ, d] = ∑ h, hid ρ h · w3[e, d, h]`.
  Both programs compute exactly these sums and products (in this order of the factors), so no law of the extended
  reals beyond the definitions is needed to compare them.
-/
import Idealize.ShloMosaic.PureOps.Ideal
import Idealize.ShloMosaic.Lib.ValueIdx

noncomputable section

open scoped BigOperators

namespace Cert.Swiglu

open Idealize.ShloMosaic Idealize.ShloMosaic.ValueIdx

/-- The token array `[32768, 512]`, the fused gate/up weights `[8, 2816, 512]`, the down weights `[8, 512, 1408]`. -/
abbrev SX : Shape := ⟨2, ![32768, 512]⟩
abbrev SW12 : Shape := ⟨3, ![8, 2816, 512]⟩
abbrev SW3 : Shape := ⟨3, ![8, 512, 1408]⟩

/-- The expert whose segment holds row `ρ`: segments are 4096 consecutive rows, in expert order. -/
def expertOf (ρ : Fin 32768) : Fin 8 := ⟨ρ.val / 4096, by have := ρ.isLt; omega⟩

/-- Column `h` of the gate half and of the up half of the fused projection. -/
def gateCol (h : Fin 1408) : Fin 2816 := ⟨h.val, by have := h.isLt; omega⟩
def upCol (h : Fin 1408) : Fin 2816 := ⟨1408 + h.val, by have := h.isLt; omega⟩

/-- The fused projection of row `ρ` at column `j`, with the weights of expert `e`. -/
def proj (x : SX.Idx → EReal) (w12 : SW12.Idx → EReal) (e : Fin 8) (ρ : Fin 32768) (j : Fin 2816) : EReal :=
  ∑ k : Fin 512, x (ix2 ρ k) * w12 (ix3 e j k)

/-- The hidden activation: gate times its logistic, times the up branch. -/
def hid (x : SX.Idx → EReal) (w12 : SW12.Idx → EReal) (e : Fin 8) (ρ : Fin 32768) (h : Fin 1408) : EReal :=
  proj x w12 e ρ (gateCol h) * Ideal.logistic (proj x w12 e ρ (gateCol h)) * proj x w12 e ρ (upCol h)

/-- The down projection of row `ρ` at column `d`, with the weights of expert `e`. -/
def down (x : SX.Idx → EReal) (w12 : SW12.Idx → EReal) (w3 : SW3.Idx → EReal) (e : Fin 8) (ρ : Fin 32768) (d : Fin 512) : EReal :=
  ∑ h : Fin 1408, hid x w12 e ρ h * w3 (ix3 e d h)

/-- The layer's result at row `ρ`, column `d`: the row's own expert's weights. -/
def out (x : SX.Idx → EReal) (w12 : SW12.Idx → EReal) (w3 : SW3.Idx → EReal) (ρ : Fin 32768) (d : Fin 512) : EReal :=
  down x w12 w3 (expertOf ρ) ρ d

/-- The whole result array. -/
def G (x : SX.Idx → EReal) (w12 : SW12.Idx → EReal) (w3 : SW3.Idx → EReal) : SX.Idx → EReal :=
  fun i => out x w12 w3 ⟨(i 0).val, idx2_lt0 i⟩ ⟨(i 1).val, idx2_lt1 i⟩

theorem G_ix2 (x : SX.Idx → EReal) (w12 : SW12.Idx → EReal) (w3 : SW3.Idx → EReal) (ρ : Fin 32768) (d : Fin 512) :
    G x w12 w3 (ix2 ρ d) = out x w12 w3 ρ d := rfl

end Cert.Swiglu

end
-- ==== Proof.PreStarts.lean ====
import proofs.«134265_j3659312136193_1_alg».proof.Pre_finite_inputs
import Idealize.ShloMosaic.Lib.ValueIdx
import Idealize.ShloMosaic.Lib.ReduceAll

/-!
  The precondition pins the segment starts.

  The printed precondition is a conjunction (a chain of 1-bit `and`s) whose last conjunct is the
  reduction by `and` of the comparison `expert_starts[e] = e * 4096` over the eight experts. When
  the whole conjunction is 1, that last conjunct is 1, so every one of its eight bits is 1, and the
  bit at `e` being 1 is the equality of the two 32-bit words: `starts[e] = ofNat e * 4096`.
-/

noncomputable section

namespace Cert.PreStarts

open Idealize.ShloMosaic

/-- The rank-0 shape has one index. -/
instance : Subsingleton Cert.Pre_finite_inputs.S_.Idx := ⟨fun a b => funext fun d => d.elim0⟩

/-- The product word at expert `e`, computed: `ofNat e * 4096 = ofNat (4096 * e)` for the eight experts. -/
theorem word_mul : ∀ e : Fin 8, IntOp.muli (BitVec.ofNat 32 e.val) (4096#32) = BitVec.ofNat 32 (4096 * e.val) := by
  decide

theorem starts_of_fn {F : FTy → Type} [FloatOps F] [Cert.Pre_finite_inputs.Facts]
    (a0 : FVec F Cert.Pre_finite_inputs.S32768x512 .f32) (a1 : FVec F Cert.Pre_finite_inputs.S8x2816x512 .f32)
    (a2 : FVec F Cert.Pre_finite_inputs.S8x512x1408 .f32) (a3 a4 : IVec Cert.Pre_finite_inputs.S8 32)
    (h : Cert.Pre_finite_inputs.fn (F := F) a0 a1 a2 a3 a4 = fun _ => 1#1) :
    ∀ e : Fin 8, a3 (ValueIdx.ix1 e) = BitVec.ofNat 32 (4096 * e.val) := by
  intro e
  have h0 := congrFun h ValueIdx.ix0
  dsimp only [Cert.Pre_finite_inputs.fn, Cert.Pre_finite_inputs.fn_part1] at h0
  -- the outer `and`: keep its right conjunct, the reduction over the experts
  have h1 := (IntOp.andi_eq_one.1 h0).2
  -- every bit of the reduced comparison is 1; read the one at expert e
  have h2 := Host.reduce_andi_all _ _ _ _ _ h1 (ValueIdx.ix1 e)
  -- the bit is the equality of starts[e] with the product word
  have h3 := IntOp.cmpi_eq.1 h2
  rw [h3]
  exact word_mul e

end Cert.PreStarts

end
-- ==== Proof.TokRows.lean ====
import proofs.«134265_j3659312136193_1_alg».proof.Proof.Gen.KernelIdeal.Frame
import Idealize.ShloMosaic.Lib.ValueIdx

/-!
  The token windows' block rows, when the segment starts are the multiples of 4096.

  The token window (input) and the output window both sit at block row `floor(starts[e] / 512) + t` of the
  [32768, 512] array, column block 0, at grid point (e, t): the index map reads the word `starts[e]` from the
  prefetched table and computes the floor division by 512 with `divsi`, `remsi` and a sign correction.
  With `starts[e] = 4096 * e` the word is a nonnegative multiple of 512, the correction does not fire, and
  the row is `8 * e + t`. Hence every block lies inside the array — `(8 e + t + 1) * 512 ≤ 32768` for
  `e, t < 8` — and its rows are whole words, which is the pipeline's side condition on the table.
-/

set_option maxRecDepth 16384

noncomputable section

namespace Cert.KernelIdeal.TokRows

open Cert.KernelIdeal Cert.KernelIdeal.Gen
open Idealize.ShloMosaic Idealize.ShloMosaic.TcCoe Idealize.SL.Sem

/-- The block-row word as the index maps compute it from the table word `w` and the grid coordinate word `a`:
    `floordiv w 512 + a`, the floor division spelled with `divsi`, `remsi` and the sign correction. -/
def rowWord (w a : BitVec 32) : BitVec 32 :=
  let c512 : BitVec 32 := 512#32
  let v2 : BitVec 32 := Scalar.divsi w c512
  let v3 : BitVec 1 := Scalar.cmpi .sgt w 0#32
  let v4 : BitVec 32 := Scalar.extui v3
  let v5 : BitVec 1 := Scalar.cmpi .slt w 0#32
  let v6 : BitVec 32 := Scalar.extui v5
  let v7 : BitVec 32 := Scalar.subi v4 v6
  let v8 : BitVec 1 := Scalar.cmpi .sgt c512 0#32
  let v9 : BitVec 32 := Scalar.extui v8
  let v10 : BitVec 1 := Scalar.cmpi .slt c512 0#32
  let v11 : BitVec 32 := Scalar.extui v10
  let v12 : BitVec 32 := Scalar.subi v9 v11
  let v13 : BitVec 1 := Scalar.cmpi .ne v7 v12
  let v14 : BitVec 32 := Scalar.remsi w c512
  let v15 : BitVec 1 := Scalar.cmpi .ne v14 0#32
  let v16 : BitVec 1 := Scalar.andi v13 v15
  let v17 : BitVec 32 := Scalar.subi v2 1#32
  let v18 : BitVec 32 := Scalar.select v16 v17 v2
  Scalar.addi v18 a

/-- At the word `4096 * e` and coordinate `t`, `e, t < 8`, the row is `8 * e + t`: sixty-four cases, computed. -/
theorem rowWord_val : ∀ e t : Fin 8,
    (rowWord (BitVec.ofNat 32 (4096 * e.val)) (BitVec.ofNat 32 t.val)).toNat = 8 * e.val + t.val := by
  decide

variable {F : FTy → Type} [FloatOps F] (m : (ℓ : Loc nD τ sig) → Buf (Elt F) ℓ)

/-- The table the region reads is the launch memory's segment-start array: no host operation writes it. -/
theorem tbl_eq : tbl m 0 = m (((0 : Dev nD) : Thread nD τ).loc main_arg3) := V_main_arg3 m 0

/-- The index the unit rectangle at offset `e` of the [8] table names is `e`. -/
theorem idx_eq (i : grid0.Coords) (inb : ∀ a, (![(Scalar.indexCast (BitVec.ofNat 32 (i 0).val)).toNat] : Fin 1 → Nat) a + S1.size a ≤ S8.size a)
    (h1 : 0 < S1.numel) :
    (Rect.unit (s := S8) ![(Scalar.indexCast (BitVec.ofNat 32 (i 0).val)).toNat] S1.size inb).emb (Shape.Idx.first h1)
      = ValueIdx.ix1 (i 0) := by
  funext a
  apply Fin.ext
  fin_cases a
  show (Scalar.indexCast (BitVec.ofNat 32 (i 0).val)).toNat + 1 * (Shape.Idx.first h1 (0 : Fin 1)).val = (i 0).val
  have h0 : (Shape.Idx.first h1 (0 : Fin 1)).val = 0 := rfl
  have hc : (Scalar.indexCast (BitVec.ofNat 32 (i 0).val)).toNat = (BitVec.ofNat 32 (i 0).val).toNat := rfl
  have hi : (i 0).val < 8 := (i 0).isLt
  rw [h0, hc, BitVec.toNat_ofNat]
  omega

/-- Block (8 e + t, 0) of 512 × 512 lies inside the [32768, 512] array. -/
theorem inb_row (i : grid0.Coords) (a : Fin 2) :
    ((![8 * (i 0).val + (i 1).val, 0] : Fin 2 → Nat) a + 1) * S512x512.size a ≤ S32768x512.size a := by
  have h0 : (i 0).val < 8 := (i 0).isLt
  have h1 : (i 1).val < 8 := (i 1).isLt
  fin_cases a
  · show (8 * (i 0).val + (i 1).val + 1) * 512 ≤ 32768
    omega
  · show (0 + 1) * 512 ≤ 512
    omega

section
variable (hs : ∀ e : Fin 8, m (((0 : Dev nD) : Thread nD τ).loc main_arg3) (ValueIdx.ix1 e) = BitVec.ofNat 32 (4096 * e.val))
include hs

/-- The word the index maps read at grid point (e, t) is `starts[e] = 4096 * e`. -/
theorem word (i : grid0.Coords) :
    (tbl m).at 0 (Rect.unit (s := S8) ![(Scalar.indexCast (BitVec.ofNat 32 (i 0).val)).toNat] S1.size (Facts₀.k0_off1_inb i)) Facts₀.numel1_S1
      = BitVec.ofNat 32 (4096 * (i 0).val) := by
  show tbl m 0 _ = _
  rw [tbl_eq]
  exact (congrArg _ (idx_eq i _ _)).trans (hs (i 0))

theorem row0 (i : grid0.Coords) :
    cc0_transform_0 Facts₀.k0_off1_inb Facts₀.numel1_S1 (tbl m) i = ![8 * (i 0).val + (i 1).val, 0] := by
  have e : cc0_transform_0 Facts₀.k0_off1_inb Facts₀.numel1_S1 (tbl m) i
      = ![(rowWord ((tbl m).at 0 (Rect.unit (s := S8) ![(Scalar.indexCast (BitVec.ofNat 32 (i 0).val)).toNat] S1.size (Facts₀.k0_off1_inb i)) Facts₀.numel1_S1)
            (BitVec.ofNat 32 (i 1).val)).toNat, 0] := rfl
  rw [e, word m hs i, rowWord_val (i 0) (i 1)]

theorem row3 (i : grid0.Coords) :
    cc0_transform_3 Facts₀.k0_off1_inb Facts₀.numel1_S1 (tbl m) i = ![8 * (i 0).val + (i 1).val, 0] := by
  have e : cc0_transform_3 Facts₀.k0_off1_inb Facts₀.numel1_S1 (tbl m) i
      = ![(rowWord ((tbl m).at 0 (Rect.unit (s := S8) ![(Scalar.indexCast (BitVec.ofNat 32 (i 0).val)).toNat] S1.size (Facts₀.k0_off1_inb i)) Facts₀.numel1_S1)
            (BitVec.ofNat 32 (i 1).val)).toNat, 0] := rfl
  rw [e, word m hs i, rowWord_val (i 0) (i 1)]

/-- The pipeline's side condition on the table: both table-reading windows' blocks inside the array, their rows whole words. -/
theorem ok_of_starts : Ok m := by
  refine ⟨fun i => ⟨fun a => ?_, Or.inr (Affine.block_words_dvd (of_decide_eq_true rfl) (by decide))⟩,
    fun i => ⟨fun a => ?_, Or.inl rfl⟩⟩
  · rw [row0 m hs i]; exact inb_row i a
  · rw [row3 m hs i]; exact inb_row i a

end

end Cert.KernelIdeal.TokRows

end
-- ==== Proof.TokRowsBits.lean ====
import proofs.«134265_j3659312136193_1_alg».proof.Proof.Gen.Kernel.Frame
import Idealize.ShloMosaic.Lib.ValueIdx

/-!
  The token windows' block rows, when the segment starts are the multiples of 4096.

  The token window (input) and the output window both sit at block row `floor(starts[e] / 512) + t` of the
  [32768, 512] array, column block 0, at grid point (e, t): the index map reads the word `starts[e]` from the
  prefetched table and computes the floor division by 512 with `divsi`, `remsi` and a sign correction.
  With `starts[e] = 4096 * e` the word is a nonnegative multiple of 512, the correction does not fire, and
  the row is `8 * e + t`. Hence every block lies inside the array — `(8 e + t + 1) * 512 ≤ 32768` for
  `e, t < 8` — and its rows are whole words, which is the pipeline's side condition on the table.
-/

set_option maxRecDepth 16384

noncomputable section

namespace Cert.Kernel.TokRowsBits

open Cert.Kernel Cert.Kernel.Gen
open Idealize.ShloMosaic Idealize.ShloMosaic.TcCoe Idealize.SL.Sem

/-- The block-row word as the index maps compute it from the table word `w` and the grid coordinate word `a`:
    `floordiv w 512 + a`, the floor division spelled with `divsi`, `remsi` and the sign correction. -/
def rowWord (w a : BitVec 32) : BitVec 32 :=
  let c512 : BitVec 32 := 512#32
  let v2 : BitVec 32 := Scalar.divsi w c512
  let v3 : BitVec 1 := Scalar.cmpi .sgt w 0#32
  let v4 : BitVec 32 := Scalar.extui v3
  let v5 : BitVec 1 := Scalar.cmpi .slt w 0#32
  let v6 : BitVec 32 := Scalar.extui v5
  let v7 : BitVec 32 := Scalar.subi v4 v6
  let v8 : BitVec 1 := Scalar.cmpi .sgt c512 0#32
  let v9 : BitVec 32 := Scalar.extui v8
  let v10 : BitVec 1 := Scalar.cmpi .slt c512 0#32
  let v11 : BitVec 32 := Scalar.extui v10
  let v12 : BitVec 32 := Scalar.subi v9 v11
  let v13 : BitVec 1 := Scalar.cmpi .ne v7 v12
  let v14 : BitVec 32 := Scalar.remsi w c512
  let v15 : BitVec 1 := Scalar.cmpi .ne v14 0#32
  let v16 : BitVec 1 := Scalar.andi v13 v15
  let v17 : BitVec 32 := Scalar.subi v2 1#32
  let v18 : BitVec 32 := Scalar.select v16 v17 v2
  Scalar.addi v18 a

/-- At the word `4096 * e` and coordinate `t`, `e, t < 8`, the row is `8 * e + t`: sixty-four cases, computed. -/
theorem rowWord_val : ∀ e t : Fin 8,
    (rowWord (BitVec.ofNat 32 (4096 * e.val)) (BitVec.ofNat 32 t.val)).toNat = 8 * e.val + t.val := by
  decide

variable {F : FTy → Type} [FloatOps F] (m : (ℓ : Loc nD τ sig) → Buf (Elt F) ℓ)

/-- The table the region reads is the launch memory's segment-start array: no host operation writes it. -/
theorem tbl_eq : tbl m 0 = m (((0 : Dev nD) : Thread nD τ).loc main_arg3) := V_main_arg3 m 0

/-- The index the unit rectangle at offset `e` of the [8] table names is `e`. -/
theorem idx_eq (i : grid0.Coords) (inb : ∀ a, (![(Scalar.indexCast (BitVec.ofNat 32 (i 0).val)).toNat] : Fin 1 → Nat) a + S1.size a ≤ S8.size a)
    (h1 : 0 < S1.numel) :
    (Rect.unit (s := S8) ![(Scalar.indexCast (BitVec.ofNat 32 (i 0).val)).toNat] S1.size inb).emb (Shape.Idx.first h1)
      = ValueIdx.ix1 (i 0) := by
  funext a
  apply Fin.ext
  fin_cases a
  show (Scalar.indexCast (BitVec.ofNat 32 (i 0).val)).toNat + 1 * (Shape.Idx.first h1 (0 : Fin 1)).val = (i 0).val
  have h0 : (Shape.Idx.first h1 (0 : Fin 1)).val = 0 := rfl
  have hc : (Scalar.indexCast (BitVec.ofNat 32 (i 0).val)).toNat = (BitVec.ofNat 32 (i 0).val).toNat := rfl
  have hi : (i 0).val < 8 := (i 0).isLt
  rw [h0, hc, BitVec.toNat_ofNat]
  omega

/-- Block (8 e + t, 0) of 512 × 512 lies inside the [32768, 512] array. -/
theorem inb_row (i : grid0.Coords) (a : Fin 2) :
    ((![8 * (i 0).val + (i 1).val, 0] : Fin 2 → Nat) a + 1) * S512x512.size a ≤ S32768x512.size a := by
  have h0 : (i 0).val < 8 := (i 0).isLt
  have h1 : (i 1).val < 8 := (i 1).isLt
  fin_cases a
  · show (8 * (i 0).val + (i 1).val + 1) * 512 ≤ 32768
    omega
  · show (0 + 1) * 512 ≤ 512
    omega

section
variable (hs : ∀ e : Fin 8, m (((0 : Dev nD) : Thread nD τ).loc main_arg3) (ValueIdx.ix1 e) = BitVec.ofNat 32 (4096 * e.val))
include hs

/-- The word the index maps read at grid point (e, t) is `starts[e] = 4096 * e`. -/
theorem word (i : grid0.Coords) :
    (tbl m).at 0 (Rect.unit (s := S8) ![(Scalar.indexCast (BitVec.ofNat 32 (i 0).val)).toNat] S1.size (Facts₀.k0_off1_inb i)) Facts₀.numel1_S1
      = BitVec.ofNat 32 (4096 * (i 0).val) := by
  show tbl m 0 _ = _
  rw [tbl_eq]
  exact (congrArg _ (idx_eq i _ _)).trans (hs (i 0))

theorem row0 (i : grid0.Coords) :
    cc0_transform_0 Facts₀.k0_off1_inb Facts₀.numel1_S1 (tbl m) i = ![8 * (i 0).val + (i 1).val, 0] := by
  have e : cc0_transform_0 Facts₀.k0_off1_inb Facts₀.numel1_S1 (tbl m) i
      = ![(rowWord ((tbl m).at 0 (Rect.unit (s := S8) ![(Scalar.indexCast (BitVec.ofNat 32 (i 0).val)).toNat] S1.size (Facts₀.k0_off1_inb i)) Facts₀.numel1_S1)
            (BitVec.ofNat 32 (i 1).val)).toNat, 0] := rfl
  rw [e, word m hs i, rowWord_val (i 0) (i 1)]

theorem row3 (i : grid0.Coords) :
    cc0_transform_3 Facts₀.k0_off1_inb Facts₀.numel1_S1 (tbl m) i = ![8 * (i 0).val + (i 1).val, 0] := by
  have e : cc0_transform_3 Facts₀.k0_off1_inb Facts₀.numel1_S1 (tbl m) i
      = ![(rowWord ((tbl m).at 0 (Rect.unit (s := S8) ![(Scalar.indexCast (BitVec.ofNat 32 (i 0).val)).toNat] S1.size (Facts₀.k0_off1_inb i)) Facts₀.numel1_S1)
            (BitVec.ofNat 32 (i 1).val)).toNat, 0] := rfl
  rw [e, word m hs i, rowWord_val (i 0) (i 1)]

/-- The pipeline's side condition on the table: both table-reading windows' blocks inside the array, their rows whole words. -/
theorem ok_of_starts : Ok m := by
  refine ⟨fun i => ⟨fun a => ?_, Or.inr (Affine.block_words_dvd (of_decide_eq_true rfl) (by decide))⟩,
    fun i => ⟨fun a => ?_, Or.inl rfl⟩⟩
  · rw [row0 m hs i]; exact inb_row i a
  · rw [row3 m hs i]; exact inb_row i a

end

end Cert.Kernel.TokRowsBits

end
-- ==== Proof.Frames.lean ====
import proofs.«134265_j3659312136193_1_alg».proof.Defs
import proofs.«134265_j3659312136193_1_alg».proof.Proof.Gen.Kernel.Frame
import proofs.«134265_j3659312136193_1_alg».proof.Proof.Gen.KernelIdeal.Frame
import proofs.«134265_j3659312136193_1_alg».proof.Proof.Gen.ReferenceIdeal.Run
import proofs.«134265_j3659312136193_1_alg».proof.Proof.Gen.Pre_finite_inputs
import proofs.«134265_j3659312136193_1_alg».proof.Proof.PreStarts
import proofs.«134265_j3659312136193_1_alg».proof.Proof.TokRows
import proofs.«134265_j3659312136193_1_alg».proof.Proof.TokRowsBits

/-!
  The three frame conjuncts, and the segment starts read off each program's precondition.

  Each program's precondition is the printed predicate at the program's five argument arrays, all ones on
  every device; its last conjunct pins the segment starts, `starts[e] = 4096 * e` (`PreStarts.starts_of_fn`).
  For the two kernel programs that fact is what the pipeline's side condition on the prefetched table needs
  (`ok_of_starts`), and under it the frame certificate gives the frame claim. The reference program is a list
  of host operations: its run leaves the arguments unchanged whatever they hold.
-/

noncomputable section

namespace Cert.Proof.Frames

open Idealize.ShloMosaic Idealize.ShloMosaic.TcCoe Idealize.SL.Sem

/-- The kernel program's precondition pins the segment starts it prefetches (device 0 is its one device). -/
theorem starts_Kernel (m : (ℓ : Loc Cert.Kernel.nD Cert.Kernel.τ Cert.Kernel.sig) → Buf (Elt Bits) ℓ) (h : Cert.Pre_Kernel m) :
    ∀ e : Fin 8, m (((0 : Dev Cert.Kernel.nD) : Thread Cert.Kernel.nD Cert.Kernel.τ).loc Cert.Kernel.main_arg3) (ValueIdx.ix1 e)
      = BitVec.ofNat 32 (4096 * e.val) :=
  Cert.PreStarts.starts_of_fn (F := Bits) _ _ _ _ _ (h 0)

/-- The same of the kernel program at the ideal floats. -/
theorem starts_KernelIdeal (m : (ℓ : Loc Cert.KernelIdeal.nD Cert.KernelIdeal.τ Cert.KernelIdeal.sig) → Buf (Elt Ideal) ℓ)
    (h : Cert.Pre_KernelIdeal m) :
    ∀ e : Fin 8, m (((0 : Dev Cert.KernelIdeal.nD) : Thread Cert.KernelIdeal.nD Cert.KernelIdeal.τ).loc Cert.KernelIdeal.main_arg3) (ValueIdx.ix1 e)
      = BitVec.ofNat 32 (4096 * e.val) :=
  Cert.PreStarts.starts_of_fn (F := Ideal) _ _ _ _ _ (h 0)

/-- The same of the reference program, on every device. -/
theorem starts_ReferenceIdeal (m' : (ℓ : Loc Cert.ReferenceIdeal.nD Cert.ReferenceIdeal.τ Cert.ReferenceIdeal.sig) → Buf (Elt Ideal) ℓ)
    (h : Cert.Pre_ReferenceIdeal m') :
    ∀ (c : Dev Cert.ReferenceIdeal.nD) (e : Fin 8),
      m' ((c.tc : Thread Cert.ReferenceIdeal.nD Cert.ReferenceIdeal.τ).loc Cert.ReferenceIdeal.main_arg3) (ValueIdx.ix1 e)
        = BitVec.ofNat 32 (4096 * e.val) :=
  fun c => Cert.PreStarts.starts_of_fn (F := Ideal) _ _ _ _ _ (h c)

theorem frame_Kernel : Cert.frame_Kernel := fun m ρ h =>
  Cert.Kernel.Gen.frame m ρ (Cert.Kernel.TokRowsBits.ok_of_starts m (starts_Kernel m h))

theorem frame_KernelIdeal : Cert.frame_KernelIdeal := fun m ρ h =>
  Cert.KernelIdeal.Gen.frame m ρ (Cert.KernelIdeal.TokRows.ok_of_starts m (starts_KernelIdeal m h))

theorem frame_ReferenceIdeal : Cert.frame_ReferenceIdeal := fun m ρ _ =>
  (θ_run Cert.ReferenceIdeal.defs _ _).mono (fun _ h c => (h c).2) (Cert.ReferenceIdeal.Value.run (F := Ideal) m ρ)

end Cert.Proof.Frames

end
-- ==== Proof.BodyValue.lean ====
/-
  What one grid point of the kernel leaves in the output block, as a value.

  The body loads the token block `X : [512, 512]`, the expert's transposed fused weights `W : [1, 512, 2816]` and its
  transposed down weights `U : [1, 1408, 512]`, and stores ONE covering block: row `r`, column `d` of it is
      ∑ h, (p r h · σ(p r h)) · p r (1408 + h)) · U[0, h, d],      p r j = ∑ k, X[r, k] · W[0, k, j],
  the two matrix products read as plain sums over their one contracted axis, the two column halves as slices, the
  logistic and the products lane by lane, the narrowing to bf16 the identity on extended reals.
-/
import proofs.«134265_j3659312136193_1_alg».proof.Proof.Gen.KernelIdeal.Frame
import proofs.«134265_j3659312136193_1_alg».proof.Proof.Swiglu
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators
open Idealize.ShloMosaic Idealize.ShloMosaic.TcCoe Idealize.SL.Sem

namespace Cert.KernelIdeal.BodyValue

open Cert.KernelIdeal Cert.KernelIdeal.Gen Idealize.ShloMosaic.ValueIdx Cert.Swiglu

theorem hz2 : (![0, 0] : Fin 2 → Nat) = fun _ => 0 := funext fun a => by fin_cases a <;> rfl
theorem hz3 : (![0, 0, 0] : Fin 3 → Nat) = fun _ => 0 := funext fun a => by fin_cases a <;> rfl

section AnyInstance
variable {F : FTy → Type} [FloatOps F]

/-- The output block after the body is its one covering store's payload, of the three input blocks as loaded whole. -/
theorem out_pay (c : Dev nD) (i : grid0.Coords) (arg3 : Memref sig .tc .vmem S512x512 .bf16) (harg3 : arg3.IsWhole) (arg4 : Memref sig .tc .vmem S1x512x2816 .bf16) (harg4 : arg4.IsWhole) (arg5 : Memref sig .tc .vmem S1x1408x512 .bf16) (harg5 : arg5.IsWhole) (arg6 : Memref sig .tc .vmem S512x512 .f32) (harg6 : arg6.IsWhole)
    (x0 : Vec F S512x512 .bf16) (x1 : Vec F S1x512x2816 .bf16) (x2 : Vec F S1x1408x512 .bf16) (xt0 : TbBuf0 (F := F) c tbM0_0) :
    out0_A_3 c i arg3 harg3 arg4 harg4 arg5 harg5 arg6 harg6 x0 x1 x2 xt0 = k0_pay1 x0 x1 x2 := by
  unfold out0_A_3
  rw [View.read_writes_eq_canon _ _ _ (cover0_A_3 c i arg3 harg3 arg4 harg4 arg5 harg5 arg6 harg6 x0 x1 x2 xt0)]
  unfold kernelRun0_A
  dsimp only
  rw [View.canon_unit_zero hz2]
  simp only [View.readAt_eq_ld, harg3.read_unread, harg4.read_unread, harg5.read_unread,
    View.ld_unit_zero (S := S512x512) hz2, View.ld_unit_zero (S := S1x512x2816) hz3, View.ld_unit_zero (S := S1x1408x512) hz3]

end AnyInstance

/-- The first product at `(r, j)`: the sum over the 512 model coordinates. -/
theorem matmulA_apply (a : FVec Ideal S512x512 .bf16) (b : FVec Ideal S512x2816 .bf16) (r : Fin 512) (j : Fin 2816) :
    matmul (F := Ideal) dot_S512x512_S512x2816_S512x2816_1_0_0_1_n_n none a b (constant S512x2816 .f32 0x00000000#32) (ix2 r j)
      = ∑ k : Fin 512, a (ix2 r k) * b (ix2 k j) := by
  simp only [matmul]
  rw [Ideal.matmul_constant_zero_apply, ← Equiv.sum_comp (contrEquiv1 dot_S512x512_S512x2816_S512x2816_1_0_0_1_n_n 512 rfl rfl).symm]
  refine Finset.sum_congr rfl fun k _ => ?_
  have hk := contrEquiv1_symm_val dot_S512x512_S512x2816_S512x2816_1_0_0_1_n_n 512 rfl rfl k
  have el : dot_S512x512_S512x2816_S512x2816_1_0_0_1_n_n.lhsIdx (ix2 r j) ((contrEquiv1 dot_S512x512_S512x2816_S512x2816_1_0_0_1_n_n 512 rfl rfl).symm k) = ix2 r k :=
    funext fun ax => Fin.ext (by
      match ax with
      | ⟨0, _⟩ => rfl
      | ⟨1, _⟩ => exact (dot_S512x512_S512x2816_S512x2816_1_0_0_1_n_n.lhsIdx_val_of_single rfl _ _).trans hk)
  have er : dot_S512x512_S512x2816_S512x2816_1_0_0_1_n_n.rhsIdx (ix2 r j) ((contrEquiv1 dot_S512x512_S512x2816_S512x2816_1_0_0_1_n_n 512 rfl rfl).symm k) = ix2 k j :=
    funext fun ax => Fin.ext (by
      match ax with
      | ⟨0, _⟩ => exact (dot_S512x512_S512x2816_S512x2816_1_0_0_1_n_n.rhsIdx_val_of_single rfl _ _).trans hk
      | ⟨1, _⟩ => rfl)
  rw [el, er]

/-- The second product at `(r, d)`: the sum over the 1408 hidden coordinates. -/
theorem matmulB_apply (a : FVec Ideal S512x1408 .bf16) (b : FVec Ideal S1408x512 .bf16) (r : Fin 512) (d : Fin 512) :
    matmul (F := Ideal) dot_S512x1408_S1408x512_S512x512_1_0_0_1_n_n none a b (constant S512x512 .f32 0x00000000#32) (ix2 r d)
      = ∑ h : Fin 1408, a (ix2 r h) * b (ix2 h d) := by
  simp only [matmul]
  rw [Ideal.matmul_constant_zero_apply, ← Equiv.sum_comp (contrEquiv1 dot_S512x1408_S1408x512_S512x512_1_0_0_1_n_n 1408 rfl rfl).symm]
  refine Finset.sum_congr rfl fun k _ => ?_
  have hk := contrEquiv1_symm_val dot_S512x1408_S1408x512_S512x512_1_0_0_1_n_n 1408 rfl rfl k
  have el : dot_S512x1408_S1408x512_S512x512_1_0_0_1_n_n.lhsIdx (ix2 r d) ((contrEquiv1 dot_S512x1408_S1408x512_S512x512_1_0_0_1_n_n 1408 rfl rfl).symm k) = ix2 r k :=
    funext fun ax => Fin.ext (by
      match ax with
      | ⟨0, _⟩ => rfl
      | ⟨1, _⟩ => exact (dot_S512x1408_S1408x512_S512x512_1_0_0_1_n_n.lhsIdx_val_of_single rfl _ _).trans hk)
  have er : dot_S512x1408_S1408x512_S512x512_1_0_0_1_n_n.rhsIdx (ix2 r d) ((contrEquiv1 dot_S512x1408_S1408x512_S512x512_1_0_0_1_n_n 1408 rfl rfl).symm k) = ix2 k d :=
    funext fun ax => Fin.ext (by
      match ax with
      | ⟨0, _⟩ => exact (dot_S512x1408_S1408x512_S512x512_1_0_0_1_n_n.rhsIdx_val_of_single rfl _ _).trans hk
      | ⟨1, _⟩ => rfl)
  rw [el, er]

/-- Row `r` of the token block against column `j` of the block of transposed fused weights. -/
def bproj (x0 : Vec Ideal S512x512 .bf16) (x1 : Vec Ideal S1x512x2816 .bf16) (r : Fin 512) (j : Fin 2816) : EReal :=
  ∑ k : Fin 512, x0 (ix2 r k) * x1 (ix3 (0 : Fin 1) k j)

/-- The hidden activation of row `r` of the block at hidden coordinate `h`. -/
def bhid (x0 : Vec Ideal S512x512 .bf16) (x1 : Vec Ideal S1x512x2816 .bf16) (r : Fin 512) (h : Fin 1408) : EReal :=
  bproj x0 x1 r (gateCol h) * Ideal.logistic (bproj x0 x1 r (gateCol h)) * bproj x0 x1 r (upCol h)

/-- THE PAYLOAD AT `(r, d)`: the down projection of the block's hidden row. -/
theorem pay_apply (x0 : Vec Ideal S512x512 .bf16) (x1 : Vec Ideal S1x512x2816 .bf16) (x2 : Vec Ideal S1x1408x512 .bf16) (r d : Fin 512) :
    k0_pay1 (F := Ideal) x0 x1 x2 (ix2 r d) = ∑ h : Fin 1408, bhid x0 x1 r h * x2 (ix3 (0 : Fin 1) h d) := by
  unfold k0_pay1
  refine (matmulB_apply _ _ r d).trans ?_
  refine Finset.sum_congr rfl fun h _ => ?_
  have e5 : shapeCast S1408x512 x2 shapeCasts_S1x1408x512_S1408x512 (ix2 h d) = x2 (ix3 (0 : Fin 1) h d) :=
    shapeCast_1ab_ab_apply x2 _ h d
  have e6 : ∀ j : Fin 2816, matmul (F := Ideal) dot_S512x512_S512x2816_S512x2816_1_0_0_1_n_n none (shapeCast S512x512 x0 shapeCasts_S512x512_S512x512)
      (shapeCast S512x2816 x1 shapeCasts_S1x512x2816_S512x2816) (constant S512x2816 .f32 0x00000000#32) (ix2 r j) = bproj x0 x1 r j := fun j => by
    refine (matmulA_apply _ _ r j).trans ?_
    refine Finset.sum_congr rfl fun k _ => ?_
    rw [shapeCast_self, shapeCast_1ab_ab_apply x1 _ k j]
  have e7 : extractStridedSlice S512x1408 ![0, 0] (matmul (F := Ideal) dot_S512x512_S512x2816_S512x2816_1_0_0_1_n_n none (shapeCast S512x512 x0 shapeCasts_S512x512_S512x512)
      (shapeCast S512x2816 x1 shapeCasts_S1x512x2816_S512x2816) (constant S512x2816 .f32 0x00000000#32)) slices_S512x2816_o0_0_S512x1408 (ix2 r h) = bproj x0 x1 r (gateCol h) :=
    (slice2_axis1_apply 0 _ slices_S512x2816_o0_0_S512x1408 r h (gateCol h) (Nat.zero_add _).symm).trans (e6 _)
  have e8 : extractStridedSlice S512x1408 ![0, 1408] (matmul (F := Ideal) dot_S512x512_S512x2816_S512x2816_1_0_0_1_n_n none (shapeCast S512x512 x0 shapeCasts_S512x512_S512x512)
      (shapeCast S512x2816 x1 shapeCasts_S1x512x2816_S512x2816) (constant S512x2816 .f32 0x00000000#32)) slices_S512x2816_o0_1408_S512x1408 (ix2 r h) = bproj x0 x1 r (upCol h) :=
    (slice2_axis1_apply 1408 _ slices_S512x2816_o0_1408_S512x1408 r h (upCol h) rfl).trans (e6 _)
  rw [e5]
  refine congrArg (· * x2 (ix3 (0 : Fin 1) h d)) ?_
  unfold bhid
  rw [← e7, ← e8]
  rfl

end Cert.KernelIdeal.BodyValue

end
-- ==== Proof.Blocks.lean ====
/-
  The kernel's windows read as arrays, and what one grid point writes back.

  With the segment starts at the multiples of 4096 the token window and the output window at grid point number `t`
  (`t = 8 e + t'` for expert `e` and tile `t'`) both sit at block row `t` of the `[32768, 512]` array, and the two weight
  windows at expert `t / 8`. The host lines before the launch narrow the tokens to bf16 (the identity on extended reals)
  and transpose each weight array on its last two axes. So at point `t`:
    • the token block's entry `(r, k)` is `x[512 t + r, k]`;
    • the fused-weight block's entry `(0, k, j)` is `w12[t / 8, j, k]`, the down-weight block's `(0, h, d)` is `w3[t / 8, d, h]`;
    • row `512 t + r` lies in segment `(512 t + r) / 4096 = t / 8`,
  hence the block the point writes back is block `t` of the layer's result `G`.
-/
import proofs.«134265_j3659312136193_1_alg».proof.Proof.Gen.KernelIdeal.Frame
import proofs.«134265_j3659312136193_1_alg».proof.Proof.TokRows
import proofs.«134265_j3659312136193_1_alg».proof.Proof.BodyValue
import proofs.«134265_j3659312136193_1_alg».proof.Proof.Swiglu
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

open scoped BigOperators
open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx Cert.Swiglu Cert.KernelIdeal.BodyValue Cert.KernelIdeal.TokRows

variable (m : (ℓ : Loc nD τ sig) → Buf (Elt Ideal) ℓ)

/-- Grid point number `t` is the pair `(t / 8, t % 8)`: its block row `8 e + t'` is `t` itself, its expert `t / 8`. -/
theorem coords_t : ∀ t : Fin grid0.N, 8 * (grid0.coords t 0).val + (grid0.coords t 1).val = t.val ∧ (grid0.coords t 0).val = t.val / 8 := by
  decide +kernel

/-- The weight windows sit at block `(t / 8, 0, 0)`. -/
theorem wrow1 : ∀ t : Fin grid0.N, cc0_transform_1 (grid0.coords t) = ![t.val / 8, 0, 0] := by decide +kernel
theorem wrow2 : ∀ t : Fin grid0.N, cc0_transform_2 (grid0.coords t) = ![t.val / 8, 0, 0] := by decide +kernel

/-- What the host lines before the region leave: the tokens narrowed, each weight array transposed on its last two axes
    then narrowed (narrowing is the identity on extended reals). -/
theorem V_v0 (c : Dev nD) : (V m c main_v0 : S32768x512.Idx → EReal) = truncf (F := Ideal) .bf16 (m ((c : Thread nD τ).loc main_arg0)) bitsLt_bf16_f32 := by
  dsimp only [Gen.V, Gen.hostOps0]; after_results

theorem V_v2 (c : Dev nD) : (V m c main_v2 : S8x512x2816.Idx → EReal) = truncf (F := Ideal) .bf16 (transpose S8x512x2816 [0, 2, 1] (m ((c : Thread nD τ).loc main_arg1)) transposes_S8x2816x512_S8x512x2816_0_2_1) bitsLt_bf16_f32 := by
  dsimp only [Gen.V, Gen.hostOps0]; after_results

theorem V_v4 (c : Dev nD) : (V m c main_v4 : S8x1408x512.Idx → EReal) = truncf (F := Ideal) .bf16 (transpose S8x1408x512 [0, 2, 1] (m ((c : Thread nD τ).loc main_arg2)) transposes_S8x512x1408_S8x1408x512_0_2_1) bitsLt_bf16_f32 := by
  dsimp only [Gen.V, Gen.hostOps0]; after_results

section
variable (hs : ∀ e : Fin 8, m (((0 : Dev nD) : Thread nD τ).loc main_arg3) (ix1 e) = BitVec.ofNat 32 (4096 * e.val)) (hO : Ok m)
include hs

theorem index0 (t : Fin (cfgM m hO).N) : ((cfgM m hO).win 0).index t = ![t.val, 0] := by
  show cc0_transform_0 Facts₀.k0_off1_inb Facts₀.numel1_S1 (tbl m) (grid0.coords t) = _
  rw [row0 m hs, (coords_t t).1]

theorem index3 (t : Fin (cfgM m hO).N) : ((cfgM m hO).win 3).index t = ![t.val, 0] := by
  show cc0_transform_3 Facts₀.k0_off1_inb Facts₀.numel1_S1 (tbl m) (grid0.coords t) = _
  rw [row3 m hs, (coords_t t).1]

theorem index1 (t : Fin (cfgM m hO).N) : ((cfgM m hO).win 1).index t = ![t.val / 8, 0, 0] := wrow1 t
theorem index2 (t : Fin (cfgM m hO).N) : ((cfgM m hO).win 2).index t = ![t.val / 8, 0, 0] := wrow2 t

/-- Row `r`, column `k` of the token block at point `t` is row `512 t + r` of the token array. -/
theorem iblk0_apply (c : Dev nD) (t : Fin (cfgM m hO).N) (r k : Fin 512) (ρ : Fin 32768) (hρ : ρ.val = t.val * 512 + r.val) :
    iblk m hO c 0 t (ix2 r k) = m ((c : Thread nD τ).loc main_arg0) (ix2 ρ k) := by
  show V m c main_v0 ((((cfgM m hO).win 0).blk t).view.emb (ix2 r k)) = _
  rw [V_v0]
  show m ((c : Thread nD τ).loc main_arg0) _ = _
  congr 1
  funext a
  apply Fin.ext
  match a with
  | ⟨0, _⟩ =>
    show ((cfgM m hO).win 0).index t (0 : Fin 2) * 512 + 1 * r.val = ρ.val
    have e := congrFun (index0 m hs hO t) (0 : Fin 2)
    have e' : ((cfgM m hO).win 0).index t (0 : Fin 2) = t.val := e
    omega
  | ⟨1, _⟩ =>
    show ((cfgM m hO).win 0).index t (1 : Fin 2) * 512 + 1 * k.val = k.val
    have e := congrFun (index0 m hs hO t) (1 : Fin 2)
    have e' : ((cfgM m hO).win 0).index t (1 : Fin 2) = 0 := e
    omega

/-- Row `k`, column `j` of the fused-weight block at point `t` is `w12[t / 8, j, k]`: the host transposed the last two axes. -/
theorem iblk1_apply (c : Dev nD) (t : Fin (cfgM m hO).N) (k : Fin 512) (j : Fin 2816) (e : Fin 8) (he : e.val = t.val / 8) :
    iblk m hO c 1 t (ix3 (0 : Fin 1) k j) = m ((c : Thread nD τ).loc main_arg1) (ix3 e j k) := by
  show V m c main_v2 ((((cfgM m hO).win 1).blk t).view.emb (ix3 (0 : Fin 1) k j)) = _
  have hemb : (((cfgM m hO).win 1).blk t).view.emb (ix3 (0 : Fin 1) k j) = (ix3 e k j : S8x512x2816.Idx) := by
    funext a
    apply Fin.ext
    have e0 : ((cfgM m hO).win 1).index t (0 : Fin 3) = t.val / 8 := congrFun (index1 m hs hO t) (0 : Fin 3)
    have e1 : ((cfgM m hO).win 1).index t (1 : Fin 3) = 0 := congrFun (index1 m hs hO t) (1 : Fin 3)
    have e2 : ((cfgM m hO).win 1).index t (2 : Fin 3) = 0 := congrFun (index1 m hs hO t) (2 : Fin 3)
    match a with
    | ⟨0, _⟩ => show ((cfgM m hO).win 1).index t (0 : Fin 3) * 1 + 1 * 0 = e.val; omega
    | ⟨1, _⟩ => show ((cfgM m hO).win 1).index t (1 : Fin 3) * 512 + 1 * k.val = k.val; omega
    | ⟨2, _⟩ => show ((cfgM m hO).win 1).index t (2 : Fin 3) * 2816 + 1 * j.val = j.val; omega
  rw [hemb, V_v2]
  exact transpose_ix3_021_apply (m ((c : Thread nD τ).loc main_arg1)) transposes_S8x2816x512_S8x512x2816_0_2_1 e k j

/-- Row `h`, column `d` of the down-weight block at point `t` is `w3[t / 8, d, h]`. -/
theorem iblk2_apply (c : Dev nD) (t : Fin (cfgM m hO).N) (h : Fin 1408) (d : Fin 512) (e : Fin 8) (he : e.val = t.val / 8) :
    iblk m hO c 2 t (ix3 (0 : Fin 1) h d) = m ((c : Thread nD τ).loc main_arg2) (ix3 e d h) := by
  show V m c main_v4 ((((cfgM m hO).win 2).blk t).view.emb (ix3 (0 : Fin 1) h d)) = _
  have hemb : (((cfgM m hO).win 2).blk t).view.emb (ix3 (0 : Fin 1) h d) = (ix3 e h d : S8x1408x512.Idx) := by
    funext a
    apply Fin.ext
    have e0 : ((cfgM m hO).win 2).index t (0 : Fin 3) = t.val / 8 := congrFun (index2 m hs hO t) (0 : Fin 3)
    have e1 : ((cfgM m hO).win 2).index t (1 : Fin 3) = 0 := congrFun (index2 m hs hO t) (1 : Fin 3)
    have e2 : ((cfgM m hO).win 2).index t (2 : Fin 3) = 0 := congrFun (index2 m hs hO t) (2 : Fin 3)
    match a with
    | ⟨0, _⟩ => show ((cfgM m hO).win 2).index t (0 : Fin 3) * 1 + 1 * 0 = e.val; omega
    | ⟨1, _⟩ => show ((cfgM m hO).win 2).index t (1 : Fin 3) * 1408 + 1 * h.val = h.val; omega
    | ⟨2, _⟩ => show ((cfgM m hO).win 2).index t (2 : Fin 3) * 512 + 1 * d.val = d.val; omega
  rw [hemb, V_v4]
  exact transpose_ix3_021_apply (m ((c : Thread nD τ).loc main_arg2)) transposes_S8x512x1408_S8x1408x512_0_2_1 e h d

/-- WHAT POINT `t` WRITES BACK is block `t` of the layer's result `G` of the three argument arrays: row `r` of the block is
    row `512 t + r` of the array, whose expert `(512 t + r) / 4096` is `t / 8`, the expert whose weights the point holds. -/
theorem flushed_eq (c : Dev nD) (t : Fin (cfgM m hO).N) :
    (dats m hO 0 c).flushed 3 t = (((cfgM m hO).win 3).blk t).view.read (Elt Ideal)
      (G (m ((c : Thread nD τ).loc main_arg0)) (m ((c : Thread nD τ).loc main_arg1)) (m ((c : Thread nD τ).loc main_arg2))) := by
  show ((cfgM m hO).win 3).cut (grid0.coords t) ((dats m hO 0 c).after 3 t) = _
  rw [after0_3]
  unfold outsAt0
  have hp := out_pay (F := Ideal) c (grid0.coords t) (ms0_0 m hO t) (hs0_0 m hO t) (ms0_1 m hO t) (hs0_1 m hO t) (ms0_2 m hO t) (hs0_2 m hO t)
    (ms0_3 m hO t) (hs0_3 m hO t) (iblk m hO c 0 t) (iblk m hO c 1 t) (iblk m hO c 2 t) (tbl m 0)
  rw [hp]
  refine funext fun (y : S512x512.Idx) => ?_
  have hN : t.val < 64 := by have := t.isLt; have h64 : (cfgM m hO).N = 64 := N_0; omega
  obtain ⟨r, d, rfl⟩ : ∃ (r d : Fin 512), y = (ix2 r d : S512x512.Idx) := ⟨y (0 : Fin 2), y (1 : Fin 2), eq_ix2 (n0 := 512) (n1 := 512) y⟩
  have hr : r.val < 512 := r.isLt
  let ρ : Fin 32768 := ⟨t.val * 512 + r.val, by omega⟩
  let e : Fin 8 := ⟨t.val / 8, by omega⟩
  have hexp : expertOf ρ = e := Fin.ext (by show (t.val * 512 + r.val) / 4096 = t.val / 8; omega)
  show k0_pay1 (F := Ideal) (iblk m hO c 0 t) (iblk m hO c 1 t) (iblk m hO c 2 t) (ix2 r d)
    = G (m ((c : Thread nD τ).loc main_arg0)) (m ((c : Thread nD τ).loc main_arg1)) (m ((c : Thread nD τ).loc main_arg2))
        ((((cfgM m hO).win 3).blk t).view.emb (ix2 r d))
  have hemb : (((cfgM m hO).win 3).blk t).view.emb (ix2 r d) = (ix2 ρ d : S32768x512.Idx) := by
    funext a
    apply Fin.ext
    have e0 : ((cfgM m hO).win 3).index t (0 : Fin 2) = t.val := congrFun (index3 m hs hO t) (0 : Fin 2)
    have e1 : ((cfgM m hO).win 3).index t (1 : Fin 2) = 0 := congrFun (index3 m hs hO t) (1 : Fin 2)
    match a with
    | ⟨0, _⟩ => show ((cfgM m hO).win 3).index t (0 : Fin 2) * 512 + 1 * r.val = t.val * 512 + r.val; omega
    | ⟨1, _⟩ => show ((cfgM m hO).win 3).index t (1 : Fin 2) * 512 + 1 * d.val = d.val; omega
  rw [hemb, G_ix2]
  refine (pay_apply (iblk m hO c 0 t) (iblk m hO c 1 t) (iblk m hO c 2 t) r d).trans ?_
  unfold out down
  rw [hexp]
  have pj : ∀ j : Fin 2816, bproj (iblk m hO c 0 t) (iblk m hO c 1 t) r j
      = proj (m ((c : Thread nD τ).loc main_arg0)) (m ((c : Thread nD τ).loc main_arg1)) e ρ j := fun j =>
    Finset.sum_congr rfl fun k _ => by
      rw [iblk0_apply m hs hO c t r k ρ rfl, iblk1_apply m hs hO c t k j e rfl]
  refine Finset.sum_congr rfl fun h _ => ?_
  rw [iblk2_apply m hs hO c t h d e rfl]
  unfold bhid hid
  rw [pj, pj]

end

end Cert.KernelIdeal.Blocks

end
-- ==== Proof.Cover.lean ====
import proofs.«134265_j3659312136193_1_alg».proof.Proof.Gen.KernelIdeal.Frame
import Idealize.ShloMosaic.Lib.Pipeline.Value
import Idealize.ShloMosaic.Lib.ValueIdx

/-!
  The output's 64 blocks of 512 rows tile the [32768, 512] array, and every grid point writes its block back.

  When the output window's block index at grid point number `t` is `(t, 0)`, consecutive points have different
  block indices, so every point issues a write-back; and point `t`'s block is rows `512 t … 512 t + 511`, all
  512 columns, so the array index `(r, c)` lies in the block of point `r / 512 < 64`.
-/

set_option maxRecDepth 16384

noncomputable section

namespace Cert.KernelIdeal.Cover

open Cert.KernelIdeal Cert.KernelIdeal.Gen
open Idealize.ShloMosaic Idealize.ShloMosaic.TcCoe Idealize.SL.Sem

variable {F : FTy → Type} [FloatOps F] (m : (ℓ : Loc nD τ sig) → Buf (Elt F) ℓ) (hO : Ok m)

/-- Window 3 is the output window. -/
theorem isOut3 : ((cfgM m hO).win 3).isOut = true := rfl

/-- The grid has 8 × 8 = 64 points. -/
theorem N_eq : (cfgM m hO).N = 64 := N_0

/-- An index of the array is in point `t`'s block iff each coordinate is in the block's range on its axis. -/
theorem mem_blk3 (t : Fin (cfgM m hO).N) (i : S32768x512.Idx) :
    i ∈ (((cfgM m hO).win 3).blk t).view.set ↔
      ∀ a : Fin 2, ((cfgM m hO).win 3).index t a * S512x512.size a ≤ (i a).val
        ∧ (i a).val < ((cfgM m hO).win 3).index t a * S512x512.size a + S512x512.size a := by
  have h1 : i ∈ (((cfgM m hO).win 3).blk t).view.set ↔ i ∈ (((cfgM m hO).win 3).rect t).set :=
    Eq.to_iff (congrArg (fun s => i ∈ s) (View.set_slice_whole main_v5 (((cfgM m hO).win 3).rect t)))
  exact h1.trans Rect.mem_set_unit

section
variable (hidx : ∀ t : Fin (cfgM m hO).N, ((cfgM m hO).win 3).index t = ![t.val, 0])
include hidx

/-- Every point writes its block back: the last one, and each other because the next point's block row differs. -/
theorem flush3 (t : Fin (cfgM m hO).N) : ((cfgM m hO).win 3).flush t = true := by
  unfold Pipeline.Window.flush
  rw [isOut3 m hO, Bool.true_and, Bool.or_eq_true, decide_eq_true_eq, decide_eq_true_eq]
  by_cases hl : t.val + 1 = grid0.N
  · exact Or.inl hl
  · have hlt : t.val + 1 < grid0.N := by have := t.isLt; have : (cfgM m hO).N = grid0.N := rfl; omega
    refine Or.inr ⟨hlt, fun e => ?_⟩
    have e0 := congrFun e (0 : Fin 2)
    rw [hidx, hidx] at e0
    have : t.val + 1 = t.val := e0
    omega

/-- Every index of the array is in the block of a point that writes back: the point `row / 512`. -/
theorem cover3 (i : S32768x512.Idx) :
    ∃ t : Fin (cfgM m hO).N, ((cfgM m hO).win 3).flush t = true ∧ i ∈ (((cfgM m hO).win 3).blk t).view.set := by
  have hi0 : (i 0).val < 32768 := (i 0).isLt
  have hi1 : (i 1).val < 512 := (i 1).isLt
  have hN : (cfgM m hO).N = 64 := N_eq m hO
  refine ⟨⟨(i 0).val / 512, by rw [hN]; omega⟩, flush3 m hO hidx _, ?_⟩
  rw [mem_blk3, hidx]
  intro a
  match a with
  | ⟨0, _⟩ => show (i 0).val / 512 * 512 ≤ (i 0).val ∧ (i 0).val < (i 0).val / 512 * 512 + 512; omega
  | ⟨1, _⟩ => show 0 * 512 ≤ (i 1).val ∧ (i 1).val < 0 * 512 + 512; omega

/-- The same, the index typed as the pipeline's array-contents lemmas type it. -/
theorem cover3' (c : Dev nD) (i : (((cfgM m hO).win 3).arr.view.loc (c.tc : Thread nD τ)).2.ty.Idx) :
    ∃ t : Fin (cfgM m hO).N, ((cfgM m hO).win 3).flush t = true ∧ i ∈ (((cfgM m hO).win 3).blk t).view.set :=
  cover3 m hO hidx i

end

end Cert.KernelIdeal.Cover

end
-- ==== Proof.KernelValue.lean ====
/-
  The kernel's result array, whole.

  Every grid point writes back block `t` of the layer's result `G` (what the body leaves is the down projection of the
  block's rows with the weights of expert `t / 8`, and rows `512 t … 512 t + 511` all belong to that expert); the sixty-four
  blocks tile the array; so after the run the array IS `G` of the three argument arrays, and the arguments are untouched.
-/
import proofs.«134265_j3659312136193_1_alg».proof.Proof.Blocks
import proofs.«134265_j3659312136193_1_alg».proof.Proof.Cover

set_option maxRecDepth 16384

noncomputable section

open Idealize.ShloMosaic Idealize.ShloMosaic.TcCoe Idealize.SL.Sem
open Idealize.ShloMosaic.Pipeline (Dat)

namespace Cert.KernelIdeal.KernelValue

open Cert.KernelIdeal Cert.KernelIdeal.Gen Idealize.ShloMosaic.ValueIdx Cert.Swiglu Cert.KernelIdeal.Blocks Cert.KernelIdeal.TokRows Cert.KernelIdeal.Cover

variable (m : (ℓ : Loc nD τ sig) → Buf (Elt Ideal) ℓ) (ρ : Dev nD → PrngReg)
variable (hs : ∀ e : Fin 8, m (((0 : Dev nD) : Thread nD τ).loc main_arg3) (ix1 e) = BitVec.ofNat 32 (4096 * e.val))
include hs

/-- The result array after the last point: the flushed blocks are blocks of `G` and cover the array. -/
theorem final (hO : Ok m) (c : Dev nD) : (dats m hO 0 c).arrAt 3 (cfgM m hO).N
    = G (m ((c : Thread nD τ).loc main_arg0)) (m ((c : Thread nD τ).loc main_arg1)) (m ((c : Thread nD τ).loc main_arg2)) :=
  (dats m hO 0 c).arrAt_eq_of_cover 3 _ (fun t _ => flushed_eq m hs hO c t) (cover3' m hO (index3 m hs hO) c)

/-- The run, read: the result at `G` of the arguments, the five arguments as launched. -/
theorem run : θ_run defs (onTc (τ := τ) (main (F := Ideal))) ⟨m, fun _ => 0, ρ⟩ fun r => ∀ c : Dev nD,
      r.2.mem ((c.tc : Thread nD τ).loc main_v5) = G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).1 3).trans (final m hs (ok_of_starts m hs) c),
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩)
    (run_main m ρ (ok_of_starts m hs))

end Cert.KernelIdeal.KernelValue

end
-- ==== Proof.RefIsSwiglu.lean ====
/-
  The reference's result is the specification.

  The reference gathers, for each expert e, the 4096-row slab of the token array that starts at row expert_starts[e],
  projects each slab with that expert's fused gate/up weights, applies  g · (1 / (1 + exp (−g))) · u  to the two halves,
  projects down with the expert's down weights, and lays the eight slabs out one after the other.
  Under the segment layout  expert_starts[e] = 4096 · e  slab e, row t is row 4096 · e + t of the token array, so row ρ of
  the result is computed from row ρ of the tokens with the weights of expert ρ / 4096: the function `Cert.Swiglu.G`.

  Two operations are read by hand: the gather (element (e, t, k) of the result is the operand at row
  clamp(start[e, 0]) + t, column k; the column start is clamped to 512 − 512 = 0) and the two-piece concatenation that
  builds the start-index array (its column 0 is the start array, wrapped by 32768 where negative). Every other operation
  is read at an index by the lemma stated for it beside its definition.
-/
import proofs.«134265_j3659312136193_1_alg».proof.Proof.Gen.ReferenceIdeal.Read
import proofs.«134265_j3659312136193_1_alg».proof.Proof.Swiglu
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- The gather of 4096-row slabs: result element (e, t, c) is the operand's row
    (start index of slab e, clamped so the slab fits) + t, at column c. -/
theorem gather_apply {α : Type} {w : Nat} (x : S32768x512.Idx → α) (idx : IVec S8x2 w) (y : S8x4096x512.Idx) :
    Host.gather gather_S32768x512_S8x2_S8x4096x512_12_n_n_n_01_1_4096512 x idx y
      = x (ix2 (n0 := 32768) (n1 := 512)
          ⟨min (idx (ix2 (n0 := 8) (n1 := 2) ⟨(y 0).val, (y 0).isLt⟩ ⟨0, by decide⟩)).toInt.toNat 28672 + (y 1).val,
            by have h1 : (y 1).val < 4096 := (y 1).isLt; omega⟩
          ⟨(y 2).val, (y 2).isLt⟩) := by
  unfold Host.gather
  refine congrArg x ?_
  funext a
  refine Fin.ext ?_
  match a with
  | ⟨0, _⟩ =>
    show gather_S32768x512_S8x2_S8x4096x512_12_n_n_n_01_1_4096512.start y idx 0
      + gather_S32768x512_S8x2_S8x4096x512_12_n_n_n_01_1_4096512.batchCoord y 0
      + gather_S32768x512_S8x2_S8x4096x512_12_n_n_n_01_1_4096512.offCoord y 0 = _
    rw [GatherDims.batchCoord_eq_zero _ _ _ List.not_mem_nil, Nat.add_zero]
    have hoff : gather_S32768x512_S8x2_S8x4096x512_12_n_n_n_01_1_4096512.offCoord y 0 = (y 1).val := by
      unfold GatherDims.offCoord
      rw [dif_pos (by decide)]
      rfl
    rw [hoff]
    refine congrArg (· + (y 1).val) ?_
    unfold GatherDims.start
    rw [dif_pos (by decide)]
    have hsi : gather_S32768x512_S8x2_S8x4096x512_12_n_n_n_01_1_4096512.siIdx y
        ⟨List.idxOf (0 : Fin S32768x512.rank) gather_S32768x512_S8x2_S8x4096x512_12_n_n_n_01_1_4096512.startIndexMap,
          List.idxOf_lt_length_iff.2 (by decide)⟩
        = ix2 (n0 := 8) (n1 := 2) ⟨(y 0).val, (y 0).isLt⟩ ⟨0, by decide⟩ := by
      funext b; refine Fin.ext ?_
      match b with
      | ⟨0, _⟩ => rfl
      | ⟨1, _⟩ => rfl
    rw [hsi]
    rfl
  | ⟨1, _⟩ =>
    show gather_S32768x512_S8x2_S8x4096x512_12_n_n_n_01_1_4096512.start y idx 1
      + gather_S32768x512_S8x2_S8x4096x512_12_n_n_n_01_1_4096512.batchCoord y 1
      + gather_S32768x512_S8x2_S8x4096x512_12_n_n_n_01_1_4096512.offCoord y 1 = _
    rw [GatherDims.batchCoord_eq_zero _ _ _ List.not_mem_nil, Nat.add_zero]
    have hoff : gather_S32768x512_S8x2_S8x4096x512_12_n_n_n_01_1_4096512.offCoord y 1 = (y 2).val := by
      unfold GatherDims.offCoord
      rw [dif_pos (by decide)]
      rfl
    have hst : gather_S32768x512_S8x2_S8x4096x512_12_n_n_n_01_1_4096512.start y idx 1 = 0 := by
      have h := gather_S32768x512_S8x2_S8x4096x512_12_n_n_n_01_1_4096512.start_le y idx 1
      exact Nat.le_zero.mp h
    rw [hoff, hst, Nat.zero_add]

/-- A start row 4096·n (n < 8) is not negative as a signed 32-bit integer, so the wrap "add 32768 if negative"
    leaves it as it is. -/
theorem wrap_start : ∀ n : Fin 8,
    Scalar.select (IntOp.cmpi CmpIPredicate.slt (BitVec.ofNat 32 (4096 * n.val)) 0#32)
      (IntOp.addi (BitVec.ofNat 32 (4096 * n.val)) 32768#32) (BitVec.ofNat 32 (4096 * n.val))
    = BitVec.ofNat 32 (4096 * n.val) := by decide

/-- The start row 4096·n read as a signed integer, and clamped so that a 4096-row slab fits, is 4096·n itself. -/
theorem start_clamp : ∀ n : Fin 8, min (BitVec.ofNat 32 (4096 * n.val)).toInt.toNat 28672 = 4096 * n.val := by decide

/-- Under the segment layout the start-index array holds, at (e, 0), the row 4096·e where expert e's segment begins:
    the first piece of the concatenation is the (wrapped-if-negative) start array, and 4096·e is not negative. -/
theorem start_apply (x3 : (⟨S8, .i32⟩ : BufTy).Contents (Elt Ideal))
    (hs : ∀ e : Fin 8, x3 (ix1 e) = BitVec.ofNat 32 (4096 * e.val)) (e : Fin 8) :
    val_main_v7 (F := Ideal) x3 (ix2 (n0 := 8) (n1 := 2) e ⟨0, by decide⟩) = BitVec.ofNat 32 (4096 * e.val) := by
  unfold val_main_v7
  refine (concatenate_pair_apply_left (t := S8x2) (s₁ := S8x1) (s₂ := S8x1) (1 : Fin 2) _ _
    concatenates_S8x1_S8x1_S8x2_d1 _ rfl (ix2 (n0 := 8) (n1 := 1) e ⟨0, by decide⟩)
    (fun b => match b with | ⟨0, _⟩ => rfl | ⟨1, _⟩ => rfl)).trans ?_
  rw [val_main_v5_apply, val_main_v4_apply, val_main_v1_apply, val_main_v3_apply, val_main_v0_apply, val_main_v2_apply,
    val_main_c_apply, val_main_c_0_apply]
  have hi : idx_main_v5 (ix2 (n0 := 8) (n1 := 1) e ⟨0, by decide⟩) = ix1 e := by
    funext a; match a with | ⟨0, _⟩ => rfl
  rw [hi, hs e]
  exact wrap_start e

/-- The reference's constant with bit pattern 0x3F800000 is the number 1. -/
theorem one_bits : FloatOps.ofBits (F := Ideal) .f32 0x3F800000#32 = (1 : Ideal .f32) := by
  rw [Ideal.ofBits_def]; simp [Ideal.ofBits, Ideal.ieee, -EReal.coe_mul]; norm_num

section
variable (x0 : (⟨S32768x512, .f32⟩ : BufTy).Contents (Elt Ideal)) (x1 : (⟨S8x2816x512, .f32⟩ : BufTy).Contents (Elt Ideal))
  (x2 : (⟨S8x512x1408, .f32⟩ : BufTy).Contents (Elt Ideal)) (x3 : (⟨S8, .i32⟩ : BufTy).Contents (Elt Ideal))
  (hs : ∀ e : Fin 8, x3 (ix1 e) = BitVec.ofNat 32 (4096 * e.val))

/-- Row t of slab e is row 4096·e + t of the token array. -/
abbrev rowOf (e : Fin 8) (t : Fin 4096) : Fin 32768 := ⟨4096 * e.val + t.val, by have := e.isLt; have := t.isLt; omega⟩

include hs

/-- The gathered slabs: element (e, t, k) is the token array's at row 4096·e + t, column k. -/
theorem v8_apply (e : Fin 8) (t : Fin 4096) (k : Fin 512) :
    val_main_v8 (F := Ideal) x0 x3 (ix3 e t k) = x0 (ix2 (rowOf e t) k) := by
  unfold val_main_v8
  refine (gather_apply x0 _ _).trans ?_
  refine congrArg x0 ?_
  funext a
  refine Fin.ext ?_
  match a with
  | ⟨0, _⟩ =>
    show min (val_main_v7 (F := Ideal) x3 (ix2 (n0 := 8) (n1 := 2) e ⟨0, by decide⟩)).toInt.toNat 28672 + t.val
      = 4096 * e.val + t.val
    rw [start_apply x3 hs e, start_clamp e]
  | ⟨1, _⟩ => rfl

/-- The fused projection of slab e, row t, column j. -/
theorem v9_apply (e : Fin 8) (t : Fin 4096) (j : Fin 2816) :
    val_main_v9 (F := Ideal) x0 x1 x3 (ix3 e t j) = Cert.Swiglu.proj x0 x1 e (rowOf e t) j := by
  rw [val_main_v9_apply]
  unfold Cert.Swiglu.proj
  refine Finset.sum_congr rfl fun k _ => ?_
  have hl : lidx_main_v9 (ix3 e t j) k = ix3 e t k := by
    funext a; match a with | ⟨0, _⟩ => rfl | ⟨1, _⟩ => rfl | ⟨2, _⟩ => rfl
  have hr : ridx_main_v9 (ix3 e t j) k = ix3 e j k := by
    funext a; match a with | ⟨0, _⟩ => rfl | ⟨1, _⟩ => rfl | ⟨2, _⟩ => rfl
  rw [hl, hr, v8_apply x0 x3 hs e t k]

/-- The gate half and the up half of the fused projection. -/
theorem v10_apply (e : Fin 8) (t : Fin 4096) (h : Fin 1408) :
    val_main_v10 (F := Ideal) x0 x1 x3 (ix3 e t h) = Cert.Swiglu.proj x0 x1 e (rowOf e t) (Cert.Swiglu.gateCol h) := by
  rw [val_main_v10_apply]
  have hi : idx_main_v10 (ix3 e t h) = ix3 e t (Cert.Swiglu.gateCol h) := by
    funext a; match a with | ⟨0, _⟩ => rfl | ⟨1, _⟩ => rfl | ⟨2, _⟩ => rfl
  rw [hi, v9_apply x0 x1 x3 hs e t]

theorem v11_apply (e : Fin 8) (t : Fin 4096) (h : Fin 1408) :
    val_main_v11 (F := Ideal) x0 x1 x3 (ix3 e t h) = Cert.Swiglu.proj x0 x1 e (rowOf e t) (Cert.Swiglu.upCol h) := by
  rw [val_main_v11_apply]
  have hi : idx_main_v11 (ix3 e t h) = ix3 e t (Cert.Swiglu.upCol h) := by
    funext a; match a with | ⟨0, _⟩ => rfl | ⟨1, _⟩ => rfl | ⟨2, _⟩ => rfl
  rw [hi, v9_apply x0 x1 x3 hs e t]

/-- The hidden activation: the reference's 1 / (1 + exp (−g)) is the logistic of g. -/
theorem v13_apply (e : Fin 8) (t : Fin 4096) (h : Fin 1408) :
    val_main_v13 (F := Ideal) x0 x1 x3 (ix3 e t h) = Cert.Swiglu.hid x0 x1 e (rowOf e t) h := by
  rw [val_main_v13_apply, val_main_v12_apply, val_main_call0_v5_apply, val_main_call0_v4_apply, val_main_call0_cst_0_apply,
    val_main_call0_v3_apply, val_main_call0_v2_apply, val_main_call0_cst_apply, val_main_call0_v1_apply,
    val_main_call0_v0_apply, v10_apply x0 x1 x3 hs e t h, v11_apply x0 x1 x3 hs e t h, one_bits]
  rfl

/-- The down projection of slab e, row t, column d. -/
theorem v14_apply (e : Fin 8) (t : Fin 4096) (d : Fin 512) :
    val_main_v14 (F := Ideal) x0 x1 x2 x3 (ix3 e t d) = Cert.Swiglu.down x0 x1 x2 e (rowOf e t) d := by
  rw [val_main_v14_apply]
  unfold Cert.Swiglu.down
  refine Finset.sum_congr rfl fun h _ => ?_
  have hl : lidx_main_v14 (ix3 e t d) h = ix3 e t h := by
    funext a; match a with | ⟨0, _⟩ => rfl | ⟨1, _⟩ => rfl | ⟨2, _⟩ => rfl
  have hr : ridx_main_v14 (ix3 e t d) h = ix3 e d h := by
    funext a; match a with | ⟨0, _⟩ => rfl | ⟨1, _⟩ => rfl | ⟨2, _⟩ => rfl
  rw [hl, hr, v13_apply x0 x1 x3 hs e t h]

/-- The result at row ρ, column d: row ρ is row ρ mod 4096 of slab ρ / 4096. -/
theorem v15_apply (ρ : Fin 32768) (d : Fin 512) :
    val_main_v15 (F := Ideal) x0 x1 x2 x3 (ix2 ρ d) = Cert.Swiglu.out x0 x1 x2 ρ d := by
  rw [val_main_v15_apply]
  have hi : idx_main_v15 (ix2 ρ d)
      = ix3 (Cert.Swiglu.expertOf ρ) (⟨ρ.val % 4096, Nat.mod_lt _ (by decide)⟩ : Fin 4096) d := by
    funext a
    refine Fin.ext ?_
    have hρ := ρ.isLt
    have hd := d.isLt
    match a with
    | ⟨0, _⟩ => show (ρ.val * 512 + d.val) / 2097152 = ρ.val / 4096; omega
    | ⟨1, _⟩ => show (ρ.val * 512 + d.val) / 512 % 4096 = ρ.val % 4096; omega
    | ⟨2, _⟩ => show (ρ.val * 512 + d.val) % 512 = d.val; omega
  rw [hi, v14_apply x0 x1 x2 x3 hs]
  unfold Cert.Swiglu.out
  have hrow : rowOf (Cert.Swiglu.expertOf ρ) (⟨ρ.val % 4096, Nat.mod_lt _ (by decide)⟩ : Fin 4096) = ρ :=
    Fin.ext (Nat.div_add_mod ρ.val 4096)
  rw [hrow]

/-- THE REFERENCE'S RESULT IS THE SPECIFICATION. -/
theorem ref_eq :
    Cert.ReferenceIdeal.Read.val_main_v15 (F := Ideal) x0 x1 x2 x3 = Cert.Swiglu.G x0 x1 x2 := by
  funext i
  rw [eq_ix2 i]
  exact v15_apply x0 x1 x2 x3 hs _ _

end

end Cert.ReferenceIdeal.RefValue

end
-- ==== Proof.lean ====
/-
  The grouped SwiGLU expert layer: the kernel and its reference are one function of the arrays.

  Arrays: tokens x : [32768, 512]; fused gate/up weights w12 : [8, 2816, 512]; down weights w3 : [8, 512, 1408];
  two integer arrays of eight entries, the first of which gives the row where each expert's segment of x begins.
  Under the stated layout  expert_starts[e] = 4096 · e  the rows of x come in eight consecutive segments of 4096 rows,
  and row ρ belongs to expert e = ρ / 4096. For such a row
      p ρ j    = ∑ k, x[ρ, k] · w12[e, j, k]                                   (j < 2816),
      hid ρ h  = (p ρ h · σ (p ρ h)) · p ρ (1408 + h),   σ t = 1 / (1 + exp (−t))   (h < 1408),
      out[ρ, d] = ∑ h, hid ρ h · w3[e, d, h]                                   (d < 512):
  the function `Cert.Swiglu.G x w12 w3` (Proof/Swiglu.lean).

  • The kernel walks the rows in blocks; each block lies inside one segment, takes that segment's expert's weights and
    computes the three formulas above for its rows (Proof/KernelValue.lean: its result array ends at `G`).
  • The reference gathers the slab of 4096 rows that starts at expert_starts[e] for each e, applies the same three
    formulas slab by slab with expert e's weights, and lays the slabs out in order; with the starts at 4096 · e slab e,
    row t is row 4096 · e + t of x, so its result is `G` too (Proof/RefIsSwiglu.lean).
  Both sides form the same sums and products with the factors in the same order, so on the extended reals the two
  results are equal term by term: no law of the extended reals beyond the definitions of the operations is used. The
  layout of the starts is what the precondition states (Proof/Frames.lean reads it off), and it is used on both sides:
  by the kernel to pick a block's expert, by the reference to place a slab.

  The three frame claims (each program runs and leaves its arguments as they were) are in Proof/Frames.lean; the
  idealized kernel is the kernel's own text read on the extended reals (no operation was rewritten), so that claim is `True`.
-/
import proofs.«134265_j3659312136193_1_alg».proof.Defs
import proofs.«134265_j3659312136193_1_alg».proof.Proof.Gen.Kernel
import proofs.«134265_j3659312136193_1_alg».proof.Proof.Gen.Kernel.Skeleton
import proofs.«134265_j3659312136193_1_alg».proof.Proof.Gen.Kernel.Launch
import proofs.«134265_j3659312136193_1_alg».proof.Proof.Gen.Kernel.Points
import proofs.«134265_j3659312136193_1_alg».proof.Proof.Gen.Kernel.Frame
import proofs.«134265_j3659312136193_1_alg».proof.Proof.Gen.KernelIdeal
import proofs.«134265_j3659312136193_1_alg».proof.Proof.Gen.KernelIdeal.Skeleton
import proofs.«134265_j3659312136193_1_alg».proof.Proof.Gen.KernelIdeal.Launch
import proofs.«134265_j3659312136193_1_alg».proof.Proof.Gen.KernelIdeal.Points
import proofs.«134265_j3659312136193_1_alg».proof.Proof.Gen.KernelIdeal.Frame
import proofs.«134265_j3659312136193_1_alg».proof.Proof.Gen.ReferenceIdeal
import proofs.«134265_j3659312136193_1_alg».proof.Proof.Gen.ReferenceIdeal.Run
import proofs.«134265_j3659312136193_1_alg».proof.Proof.Gen.ReferenceIdeal.Read
import proofs.«134265_j3659312136193_1_alg».proof.Proof.Gen.Pre_finite_inputs
import proofs.«134265_j3659312136193_1_alg».proof.Proof.Swiglu
import proofs.«134265_j3659312136193_1_alg».proof.Proof.Frames
import proofs.«134265_j3659312136193_1_alg».proof.Proof.KernelValue
import proofs.«134265_j3659312136193_1_alg».proof.Proof.RefIsSwiglu
import Idealize.ShloMosaic.Adequacy
import Idealize.ShloMosaic.Init

noncomputable section

namespace Cert.Proof

open Idealize.ShloMosaic Idealize.ShloMosaic.TcCoe Idealize.SL.Sem

/-- On the extended reals, from memories that agree on the arguments and whose segment starts are 4096 · e, both
    programs end with the array `Cert.Swiglu.G x w12 w3` of the kernel's arguments: the kernel by its own value lemma,
    the reference by its run (whose result term is `val_main_v15` of its arguments) and `ref_eq`, the reference's
    arguments being the kernel's. There is one device, so the layout stated at device 0 is the layout at every device. -/
theorem algebraic : Cert.algebraic_KernelIdeal_ReferenceIdeal := by
  intro m ρ m' ρ' hpre hagree
  have hs := Frames.starts_KernelIdeal m hpre
  refine ⟨fun c => Cert.Swiglu.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KernelValue.run m ρ hs, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v15_eq _ _ _ _).trans ?_
  obtain rfl : c = 0 := Subsingleton.elim _ _
  have hs' : ∀ e : Fin 8,
      m' (((0 : Dev Cert.ReferenceIdeal.nD).tc : Thread Cert.ReferenceIdeal.nD Cert.ReferenceIdeal.τ).loc Cert.ReferenceIdeal.main_arg3) (ValueIdx.ix1 e)
        = BitVec.ofNat 32 (4096 * e.val) := fun e => by
    rw [(hagree 0).2.2.2.1]; exact hs e
  rw [Cert.ReferenceIdeal.RefValue.ref_eq _ _ _ _ hs', (hagree 0).1, (hagree 0).2.1, (hagree 0).2.2.1]

theorem claim : Cert.Claim := ⟨Cert.Kernel.Gen.facts, Cert.KernelIdeal.Gen.facts, Cert.ReferenceIdeal.Gen.facts, Cert.Pre_finite_inputs.Gen.facts,
  Frames.frame_Kernel, Frames.frame_KernelIdeal, Frames.frame_ReferenceIdeal, trivial, algebraic⟩

end Cert.Proof

end
